-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  main_v3
-- ==== Kernel.lean ====
abbrev S8x2048x3 : Shape := ⟨3, ![8, 2048, 3]⟩
abbrev S8x3x2048 : Shape := ⟨3, ![8, 3, 2048]⟩
abbrev S3x8x2048x2048 : Shape := ⟨4, ![3, 8, 2048, 2048]⟩
abbrev S1x512x3 : Shape := ⟨3, ![1, 512, 3]⟩
abbrev S1x3x1024 : Shape := ⟨3, ![1, 3, 1024]⟩
abbrev S3x1x512x1024 : Shape := ⟨4, ![3, 1, 512, 1024]⟩
abbrev S512x3 : Shape := ⟨2, ![512, 3]⟩
abbrev S3x1024 : Shape := ⟨2, ![3, 1024]⟩
abbrev S512x1 : Shape := ⟨2, ![512, 1]⟩
abbrev S1x1024 : Shape := ⟨2, ![1, 1024]⟩
abbrev S512x1024 : Shape := ⟨2, ![512, 1024]⟩
abbrev S1x1x512x1024 : Shape := ⟨4, ![1, 1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x3, .f32⟩
  | .hbm, ⟨1, _⟩ => ⟨S8x3x2048, .f32⟩
  | .hbm, ⟨2, _⟩ => ⟨S3x8x2048x2048, .f32⟩
  | .local _ .vmem, ⟨0, _⟩ => ⟨S1x512x3, .f32⟩
  | .local _ .vmem, ⟨1, _⟩ => ⟨S1x512x3, .f32⟩
  | .local _ .vmem, ⟨2, _⟩ => ⟨S1x3x1024, .f32⟩
  | .local _ .vmem, ⟨3, _⟩ => ⟨S1x3x1024, .f32⟩
  | .local _ .vmem, ⟨4, _⟩ => ⟨S3x1x512x1024, .f32⟩
  | .local _ .vmem, ⟨5, _⟩ => ⟨S3x1x512x1024, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S3x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S8x2048x3_S8x3x2048_0_2_1 : S8x2048x3.Transposes [0, 2, 1] S8x3x2048
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S512x3_o0_0_S512x1 : S512x3.Slices ![0, 0] S512x1
  slices_S512x3_o0_1_S512x1 : S512x3.Slices ![0, 1] S512x1
  slices_S512x3_o0_2_S512x1 : S512x3.Slices ![0, 2] S512x1
  slices_S3x1024_o0_0_S1x1024 : S3x1024.Slices ![0, 0] S1x1024
  slices_S3x1024_o1_0_S1x1024 : S3x1024.Slices ![1, 0] S1x1024
  slices_S3x1024_o2_0_S1x1024 : S3x1024.Slices ![2, 0] S1x1024
  broadcasts_S512x1_S512x1024 : S512x1.Broadcasts S512x1024
  broadcasts_S1x1024_S512x1024 : S1x1024.Broadcasts S512x1024
  inb_S3x1x512x1024_S1x1x512x1024_0_0_0_0 : ∀ a, (![0, 0, 0, 0] : Fin 4 → Nat) a + S1x1x512x1024.size a ≤ S3x1x512x1024.size a
  h_S1x1x512x1024 : 0 < S1x1x512x1024.numel
  shapeCasts_S1x1x512x1024_S512x1024 : S1x1x512x1024.ShapeCasts S512x1024
  shapeCasts_S512x1024_S1x1x512x1024 : S512x1024.ShapeCasts S1x1x512x1024
  inb_S3x1x512x1024_S1x1x512x1024_1_0_0_0 : ∀ a, (![1, 0, 0, 0] : Fin 4 → Nat) a + S1x1x512x1024.size a ≤ S3x1x512x1024.size a
  inb_S3x1x512x1024_S1x1x512x1024_2_0_0_0 : ∀ a, (![2, 0, 0, 0] : Fin 4 → Nat) a + S1x1x512x1024.size a ≤ S3x1x512x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x2048x3.size a
  hwx0_0 : ∀ i : grid0.Coords, EltTy.bits .f32 = 32 ∨ (Rect.block (s := S8x2048x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x2048.size a
  hwx0_1 : ∀ i : grid0.Coords, EltTy.bits .f32 = 32 ∨ (Rect.block (s := S8x3x2048) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x1x512x1024.size a ≤ S3x8x2048x2048.size a
  hwx0_2 : ∀ i : grid0.Coords, EltTy.bits .f32 = 32 ∨ (Rect.block (s := S3x8x2048x2048) S3x1x512x1024.size (cc0_transform_2 i) (hinb0_2 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S1x8x2048x2048 : Shape := ⟨4, ![1, 8, 2048, 2048]⟩
abbrev S3x8x2048x2048 : Shape := ⟨4, ![3, 8, 2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x1x3, .f32⟩
  | .hbm, ⟨2, _⟩ => ⟨S8x1x2048x3, .f32⟩
  | .hbm, ⟨3, _⟩ => ⟨S8x2048x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S_, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .i1⟩
  | .hbm, ⟨16, _⟩ => ⟨S_, .f32⟩
  | .hbm, ⟨17, _⟩ => ⟨S8x2048x2048, .f32⟩
  | .hbm, ⟨18, _⟩ => ⟨S8x2048x2048, .i1⟩
  | .hbm, ⟨19, _⟩ => ⟨S8x2048x2048, .i1⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .i1⟩
  | .hbm, ⟨27, _⟩ => ⟨S_, .f32⟩
  | .hbm, ⟨28, _⟩ => ⟨S8x2048x2048, .f32⟩
  | .hbm, ⟨29, _⟩ => ⟨S8x2048x2048, .i1⟩
  | .hbm, ⟨30, _⟩ => ⟨S8x2048x2048, .i1⟩
  | .hbm, ⟨31, _⟩ => ⟨S_, .f32⟩
  | .hbm, ⟨32, _⟩ => ⟨S_, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S8x2048x2048, .i1⟩
  | .hbm, ⟨38, _⟩ => ⟨S_, .f32⟩
  | .hbm, ⟨39, _⟩ => ⟨S8x2048x2048, .f32⟩
  | .hbm, ⟨40, _⟩ => ⟨S8x2048x2048, .i1⟩
  | .hbm, ⟨41, _⟩ => ⟨S8x2048x2048, .i1⟩
  | .hbm, ⟨42, _⟩ => ⟨S_, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S1x8x2048x2048, .f32⟩
  | .hbm, ⟨47, _⟩ => ⟨S1x8x2048x2048, .f32⟩
  | .hbm, ⟨48, _⟩ => ⟨S1x8x2048x2048, .f32⟩
  | .hbm, ⟨49, _⟩ => ⟨S3x8x2048x2048, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_call2_v0 : Ref sig .tc := ⟨.hbm, 43, rfl⟩
abbrev main_call2_v1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  bcast_S_S8x2048x2048 : S_.BroadcastsInDim S8x2048x2048 (![] : Fin 0 → Fin S8x2048x2048.rank)
  bcast_S8x2048x2048_S1x8x2048x2048_1_2_3 : S8x2048x2048.BroadcastsInDim S1x8x2048x2048 (![1, 2, 3] : Fin 3 → Fin S1x8x2048x2048.rank)
  concatenates_S1x8x2048x2048_S1x8x2048x2048_S1x8x2048x2048_S3x8x2048x2048_d0 : Shape.Concatenates [S1x8x2048x2048, S1x8x2048x2048, S1x8x2048x2048] S3x8x2048x2048 0

variable [Facts₀]

class Facts : Prop extends Facts₀ where

variable [Facts]
-- ==== Proof.EdgeSpec.lean ====
/-
  The mathematics of the pairwise edge weights, free of any program.

  For points x_p = (x, y, z) and x_q = (x', y', z') the CLAMPED DISTANCE is
      d(p, q) = sqrt (max ((x - x')² + (y - y')² + (z - z')²) ε²),
  and the EDGE WEIGHT at radius r is d when ε' < d < r and 0 otherwise (ε², ε' two small positive
  constants: the floor under the square root and the self-edge threshold).  The result array holds, for
  the three radii 3 < 5 < 8, the edge weight of every ordered pair of points of every batch.

  One law is proved here, on the extended reals and with no finiteness assumed: masking the weight at a
  larger radius r once more by "d < r'" for a smaller radius r' ≤ r gives the weight at r' — because
  d < r' already implies d < r.  It is what lets the three weights be computed as a chain of masks,
  largest radius first, instead of three independent ones.
-/
import Idealize.ShloMosaic.PureOps.Ideal
import Idealize.ShloMosaic.PureOps.Ideal.Laws
import Idealize.ShloMosaic.Lib.ValueIdx

noncomputable section

namespace Cert.PairEdges

open Idealize.ShloMosaic Idealize.ShloMosaic.ValueIdx

/-! ## Distance and edge weight of one pair -/

/-- The clamped distance of two points given by their coordinates: the square root of the sum of the three
    squared coordinate differences, floored at the constant ε² before the root. -/
def clampDist (x y z x' y' z' : EReal) : EReal :=
  Ideal.sqrt (max ((x - x') * (x - x') + (y - y') * (y - y') + (z - z') * (z - z')) (Ideal.ofBits .f32 0x2B8CBCCC#32))

/-- The edge weight at radius `r` of a pair at distance `d`: `d` if `d < r` and `d` exceeds the self-edge threshold,
    else zero — spelt with the comparison, conjunction and selection the programs use. -/
def edge (r d : EReal) : EReal :=
  Scalar.select (IntOp.andi (Ideal.cmp .olt d r) (Ideal.cmp .ogt d (Ideal.ofBits .f32 0x358637BD#32))) d
    (Ideal.ofBits .f32 0x00000000#32)

/-- The edge weight as a conditional on the two order facts. -/
theorem edge_eq_ite (r d : EReal) :
    edge r d = if d < r ∧ Ideal.ofBits .f32 0x358637BD#32 < d then d else Ideal.ofBits .f32 0x00000000#32 := by
  unfold edge Scalar.select IntOp.andi Ideal.cmp
  by_cases h1 : d < r <;> by_cases h2 : Ideal.ofBits .f32 0x358637BD#32 < d <;> simp [h1, h2]

/-- MASKING AGAIN AT A SMALLER RADIUS: for `r' ≤ r`, keeping the weight at radius `r` only where `d < r'` gives the
    weight at radius `r'`, since `d < r'` implies `d < r`. -/
theorem select_lt_edge (r r' d : EReal) (h : r' ≤ r) :
    Scalar.select (Ideal.cmp .olt d r') (edge r d) (Ideal.ofBits .f32 0x00000000#32) = edge r' d := by
  rw [edge_eq_ite, edge_eq_ite]
  unfold Scalar.select Ideal.cmp
  by_cases h1 : d < r'
  · have h2 : d < r := lt_of_lt_of_le h1 h
    simp [h1, h2]
  · simp [h1]

/-! ## The three radii -/

/-- The word 0x40400000 denotes the real 3. -/
theorem ofBits_three : Ideal.ofBits .f32 0x40400000#32 = ((3 : ℝ) : EReal) := by
  simp [Ideal.ofBits, Ideal.ieee, -EReal.coe_mul]; norm_num

/-- The word 0x40A00000 denotes the real 5. -/
theorem ofBits_five : Ideal.ofBits .f32 0x40A00000#32 = ((5 : ℝ) : EReal) := by
  simp [Ideal.ofBits, Ideal.ieee, -EReal.coe_mul]; norm_num

/-- The word 0x41000000 denotes the real 8. -/
theorem ofBits_eight : Ideal.ofBits .f32 0x41000000#32 = ((8 : ℝ) : EReal) := by
  simp [Ideal.ofBits, Ideal.ieee, -EReal.coe_mul]; norm_num

theorem three_le_five : Ideal.ofBits .f32 0x40400000#32 ≤ Ideal.ofBits .f32 0x40A00000#32 := by
  rw [ofBits_three, ofBits_five]; exact_mod_cast (by norm_num : (3 : ℝ) ≤ 5)

theorem five_le_eight : Ideal.ofBits .f32 0x40A00000#32 ≤ Ideal.ofBits .f32 0x41000000#32 := by
  rw [ofBits_five, ofBits_eight]; exact_mod_cast (by norm_num : (5 : ℝ) ≤ 8)

/-- The radius of scale `s`: 3, 5, 8. -/
def radius (s : Fin 3) : EReal :=
  match s with
  | ⟨0, _⟩ => Ideal.ofBits .f32 0x40400000#32
  | ⟨1, _⟩ => Ideal.ofBits .f32 0x40A00000#32
  | ⟨2, _⟩ => Ideal.ofBits .f32 0x41000000#32

/-- THE CHAIN OF MASKS, radius 5 from radius 8. -/
theorem chain_five (d : EReal) :
    Scalar.select (Ideal.cmp .olt d (Ideal.ofBits .f32 0x40A00000#32)) (edge (Ideal.ofBits .f32 0x41000000#32) d)
      (Ideal.ofBits .f32 0x00000000#32) = edge (Ideal.ofBits .f32 0x40A00000#32) d :=
  select_lt_edge _ _ d five_le_eight

/-- THE CHAIN OF MASKS, radius 3 from radius 5 from radius 8. -/
theorem chain_three (d : EReal) :
    Scalar.select (Ideal.cmp .olt d (Ideal.ofBits .f32 0x40400000#32))
      (Scalar.select (Ideal.cmp .olt d (Ideal.ofBits .f32 0x40A00000#32)) (edge (Ideal.ofBits .f32 0x41000000#32) d)
        (Ideal.ofBits .f32 0x00000000#32))
      (Ideal.ofBits .f32 0x00000000#32) = edge (Ideal.ofBits .f32 0x40400000#32) d := by
  rw [chain_five]
  exact select_lt_edge _ _ d three_le_five

/-! ## The whole array -/

/-- The clamped distance between points `p` and `q` of batch `b` of a position array [8, 2048, 3]. -/
def pairDist (pos : (⟨3, ![8, 2048, 3]⟩ : Shape).Idx → EReal) (b : Fin 8) (p q : Fin 2048) : EReal :=
  clampDist (pos (ix3 b p (0 : Fin 3))) (pos (ix3 b p (1 : Fin 3))) (pos (ix3 b p (2 : Fin 3)))
    (pos (ix3 b q (0 : Fin 3))) (pos (ix3 b q (1 : Fin 3))) (pos (ix3 b q (2 : Fin 3)))

/-- THE RESULT: entry `(s, b, p, q)` of the [3, 8, 2048, 2048] array is the edge weight, at the radius of scale `s`, of
    the pair `(p, q)` of batch `b`. -/
def edges (pos : (⟨3, ![8, 2048, 3]⟩ : Shape).Idx → EReal) : (⟨4, ![3, 8, 2048, 2048]⟩ : Shape).Idx → EReal :=
  fun i => edge (radius (i 0)) (pairDist pos (i 1) (i 2) (i 3))

theorem edges_ix4 (pos : (⟨3, ![8, 2048, 3]⟩ : Shape).Idx → EReal) (s : Fin 3) (b : Fin 8) (p q : Fin 2048) :
    edges pos (ix4 s b p q) = edge (radius s) (pairDist pos b p q) := rfl

end Cert.PairEdges

end
-- ==== Proof.RefEdges.lean ====
/-
  The reference program's result is the array of edge weights.

  The reference forms every coordinate difference pos[b, p, k] - pos[b, q, k] in a [8, 2048, 2048, 3] array, squares it,
  sums the three squares over k starting from 0, floors the sum, takes the root, masks the distance once per radius by
  "d < r and d > ε'", and stacks the three masked arrays along a new leading axis.  Read at an index (s, b, p, q) this is
  the edge weight at the radius of scale s of the pair (p, q) of batch b: the sum from 0 over k of three squares is the
  three squares added, and the stack's entry at leading coordinate s is its s-th operand's entry.
-/
import proofs.«117132_j41120016892412_2_alg».proof.Proof.Gen.ReferenceIdeal.Read
import proofs.«117132_j41120016892412_2_alg».proof.Proof.EdgeSpec

noncomputable section

namespace Cert.ReferenceIdeal.RefValue

open Cert.ReferenceIdeal Cert.ReferenceIdeal.Gen Cert.ReferenceIdeal.Read
open Idealize.ShloMosaic Idealize.ShloMosaic.ValueIdx Cert.PairEdges

/-! ## Which entry of the positions each term reads -/

/-- Term `k` of the sum at `(b, p, q)` reads, on the left of the difference, coordinate `k` of point `p`; -/
theorem idx_left (b : Fin 8) (p q : Fin 2048) (k : Fin 3) :
    idx_main_v0 (idx_main_v2 (idx_main_v6 (ix3 b p q) k)) = ix3 b p k :=
  funext fun a => Fin.ext (by match a with | ⟨0, _⟩ => rfl | ⟨1, _⟩ => rfl | ⟨2, _⟩ => rfl)

/-- and on the right, coordinate `k` of point `q`. -/
theorem idx_right (b : Fin 8) (p q : Fin 2048) (k : Fin 3) :
    idx_main_v1 (idx_main_v3 (idx_main_v6 (ix3 b p q) k)) = ix3 b q k :=
  funext fun a => Fin.ext (by match a with | ⟨0, _⟩ => rfl | ⟨1, _⟩ => rfl | ⟨2, _⟩ => rfl)

/-! ## The distance -/

/-- The reference's distance array at `(b, p, q)` is the clamped distance of points `p` and `q` of batch `b`. -/
theorem dist_apply (x0 : (⟨S8x2048x3, .f32⟩ : BufTy).Contents (Elt Ideal)) (b : Fin 8) (p q : Fin 2048) :
    val_main_v9 (F := Ideal) x0 (ix3 b p q) = pairDist x0 b p q := by
  rw [val_main_v9_apply, val_main_v8_apply, val_main_v6_apply, val_main_v7_apply, val_main_cst_0_apply, val_main_cst_apply]
  simp only [Fin.sum_univ_three, val_main_v5_apply, val_main_v4_apply, val_main_v2_apply, val_main_v3_apply,
    val_main_v0_apply, val_main_v1_apply, idx_left, idx_right, Ideal.hostUnary_sqrt_def, Ideal.maximumf_def,
    Ideal.mulf_def, Ideal.subf_def, Ideal.ofBits_def, Ideal.ofBits_zero_f32, zero_add]
  rfl

/-! ## The three masked arrays -/

/-- The array masked at radius 3 holds the edge weights at radius 3. -/
theorem weight3_apply (x0 : (⟨S8x2048x3, .f32⟩ : BufTy).Contents (Elt Ideal)) (b : Fin 8) (p q : Fin 2048) :
    val_main_v15 (F := Ideal) x0 (ix3 b p q) = edge (Ideal.ofBits .f32 0x40400000#32) (pairDist x0 b p q) := by
  rw [val_main_v15_apply, val_main_v14_apply, val_main_v11_apply, val_main_v13_apply, val_main_v10_apply,
    val_main_v12_apply, val_main_call0_v1_apply, val_main_call0_v0_apply, val_main_cst_1_apply, val_main_cst_2_apply,
    val_main_cst_3_apply, dist_apply]
  rfl

/-- The array masked at radius 5 holds the edge weights at radius 5. -/
theorem weight5_apply (x0 : (⟨S8x2048x3, .f32⟩ : BufTy).Contents (Elt Ideal)) (b : Fin 8) (p q : Fin 2048) :
    val_main_v21 (F := Ideal) x0 (ix3 b p q) = edge (Ideal.ofBits .f32 0x40A00000#32) (pairDist x0 b p q) := by
  rw [val_main_v21_apply, val_main_v20_apply, val_main_v17_apply, val_main_v19_apply, val_main_v16_apply,
    val_main_v18_apply, val_main_call1_v1_apply, val_main_call1_v0_apply, val_main_cst_4_apply, val_main_cst_5_apply,
    val_main_cst_6_apply, dist_apply]
  rfl

/-- The array masked at radius 8 holds the edge weights at radius 8. -/
theorem weight8_apply (x0 : (⟨S8x2048x3, .f32⟩ : BufTy).Contents (Elt Ideal)) (b : Fin 8) (p q : Fin 2048) :
    val_main_v27 (F := Ideal) x0 (ix3 b p q) = edge (Ideal.ofBits .f32 0x41000000#32) (pairDist x0 b p q) := by
  rw [val_main_v27_apply, val_main_v26_apply, val_main_v23_apply, val_main_v25_apply, val_main_v22_apply,
    val_main_v24_apply, val_main_call2_v1_apply, val_main_call2_v0_apply, val_main_cst_7_apply, val_main_cst_8_apply,
    val_main_cst_9_apply, dist_apply]
  rfl

/-! ## The stack -/

/-- Each masked array, given its unit leading axis, is read at `(0, b, p, q)` where the array is read at `(b, p, q)`. -/
theorem idx_lead3 (b : Fin 8) (p q : Fin 2048) : idx_main_v28 (ix4 (0 : Fin 1) b p q) = ix3 b p q :=
  funext fun a => Fin.ext (by match a with | ⟨0, _⟩ => rfl | ⟨1, _⟩ => rfl | ⟨2, _⟩ => rfl)
theorem idx_lead5 (b : Fin 8) (p q : Fin 2048) : idx_main_v29 (ix4 (0 : Fin 1) b p q) = ix3 b p q :=
  funext fun a => Fin.ext (by match a with | ⟨0, _⟩ => rfl | ⟨1, _⟩ => rfl | ⟨2, _⟩ => rfl)
theorem idx_lead8 (b : Fin 8) (p q : Fin 2048) : idx_main_v30 (ix4 (0 : Fin 1) b p q) = ix3 b p q :=
  funext fun a => Fin.ext (by match a with | ⟨0, _⟩ => rfl | ⟨1, _⟩ => rfl | ⟨2, _⟩ => rfl)

/-- THE REFERENCE'S RESULT is the array of edge weights of its argument. -/
theorem result_eq (x0 : (⟨S8x2048x3, .f32⟩ : BufTy).Contents (Elt Ideal)) :
    val_main_v31 (F := Ideal) x0 = edges x0 := by
  funext j
  obtain ⟨s, b, p, q, rfl⟩ : ∃ (s : Fin 3) (b : Fin 8) (p q : Fin 2048), j = ix4 s b p q :=
    ⟨j 0, j 1, j 2, j 3, eq_ix4 j⟩
  rw [edges_ix4]
  unfold val_main_v31
  match s with
  | ⟨0, _⟩ =>
    refine (concatenate_apply_piece (t := S3x8x2048x2048) (0 : Fin 4) _ _ _ 0 ?_ S1x8x2048x2048 (val_main_v28 (F := Ideal) x0) ?_ rfl 0 ?_
      (ix4 (0 : Fin 1) b p q) ?_ ?_).trans ?_
    · show (0 : Nat) < 3; omega
    · rfl
    · rfl
    · intro a ha
      match a with
      | ⟨0, _⟩ => exact absurd rfl ha
      | ⟨1, _⟩ => rfl
      | ⟨2, _⟩ => rfl
      | ⟨3, _⟩ => rfl
    · rfl
    · rw [val_main_v28_apply, idx_lead3, weight3_apply]; rfl
  | ⟨1, _⟩ =>
    refine (concatenate_apply_piece (t := S3x8x2048x2048) (0 : Fin 4) _ _ _ 1 ?_ S1x8x2048x2048 (val_main_v29 (F := Ideal) x0) ?_ rfl 1 ?_
      (ix4 (0 : Fin 1) b p q) ?_ ?_).trans ?_
    · show (1 : Nat) < 3; omega
    · rfl
    · rfl
    · intro a ha
      match a with
      | ⟨0, _⟩ => exact absurd rfl ha
      | ⟨1, _⟩ => rfl
      | ⟨2, _⟩ => rfl
      | ⟨3, _⟩ => rfl
    · rfl
    · rw [val_main_v29_apply, idx_lead5, weight5_apply]; rfl
  | ⟨2, _⟩ =>
    refine (concatenate_apply_piece (t := S3x8x2048x2048) (0 : Fin 4) _ _ _ 2 ?_ S1x8x2048x2048 (val_main_v30 (F := Ideal) x0) ?_ rfl 2 ?_
      (ix4 (0 : Fin 1) b p q) ?_ ?_).trans ?_
    · show (2 : Nat) < 3; omega
    · rfl
    · rfl
    · intro a ha
      match a with
      | ⟨0, _⟩ => exact absurd rfl ha
      | ⟨1, _⟩ => rfl
      | ⟨2, _⟩ => rfl
      | ⟨3, _⟩ => rfl
    · rfl
    · rw [val_main_v30_apply, idx_lead8, weight8_apply]; rfl

end Cert.ReferenceIdeal.RefValue

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.BodyEdges.lean ====
/-
  What the kernel body leaves in one output block, as a function of the block index.

  At a grid point the body holds a block of 512 points (rows; three coordinates each) and, from the
  transposed positions, a block of 1024 points (lanes; the three coordinates as three rows).  It spreads coordinate k of
  the row points along the lanes and coordinate k of the lane points along the rows, so entry (p, q) of each difference is
  the coordinate difference of row point p and lane point q; squares and adds the three; floors, takes the root — the
  clamped distance of the pair.  It then masks the distance at radius 8 (together with the self-edge threshold), masks
  that result again by "d < 5", and that again by "d < 3", and stores the three results as the three leading slabs
  2, 1, 0 of the output block.  By the law of the chain of masks each slab s holds the edge weights at the radius of s.
-/
import proofs.«117132_j41120016892412_2_alg».proof.Proof.Gen.KernelIdeal.Frame
import proofs.«117132_j41120016892412_2_alg».proof.Proof.EdgeSpec
import proofs.«117132_j41120016892412_2_alg».proof.Proof.LibColumnLayout
import Idealize.ShloMosaic.Lib.Pipeline.Value
import Idealize.ShloMosaic.Lib.ValueLayout
import Idealize.ShloMosaic.Lib.ValueIdx

noncomputable section

namespace Cert.KernelIdeal.Body

open Cert.KernelIdeal Cert.KernelIdeal.Gen
open Idealize.ShloMosaic Idealize.ShloMosaic.ValueIdx Cert.PairEdges

/-! ## The two spread coordinates -/

/-- Coordinate `k` of the row points, cut out of the [512, 3] block as a column and spread along the lanes, reads at
    `(p, q)` coordinate `k` of row point `p`. -/
theorem rowCoord_apply (x0 : Vec Ideal S1x512x3 .f32) (o : Nat) (k : Fin 3) (hk : k.val = o)
    (h1 : S1x512x3.ShapeCasts S512x3) (h2 : S512x3.Slices ![0, o] S512x1) (h3 : S512x1.Broadcasts S512x1024)
    (p : Fin 512) (q : Fin 1024) :
    broadcastTo S512x1024 (extractStridedSlice S512x1 ![0, o] (shapeCast S512x3 x0 h1) h2) h3 (ix2 p q)
      = x0 (ix3 (0 : Fin 1) p k) :=
  (broadcastTo_a1_ab_apply _ h3 p q).trans
    ((slice2_axis1_apply o _ h2 p (0 : Fin 1) k (by omega)).trans (shapeCast_1ab_ab_apply x0 h1 p k))

/-- Coordinate `k` of the lane points, cut out of the [3, 1024] block as a row and spread along the rows, reads at
    `(p, q)` coordinate `k` of lane point `q`. -/
theorem laneCoord_apply (x1 : Vec Ideal S1x3x1024 .f32) (o : Nat) (k : Fin 3) (hk : k.val = o)
    (h1 : S1x3x1024.ShapeCasts S3x1024) (h2 : S3x1024.Slices ![o, 0] S1x1024) (h3 : S1x1024.Broadcasts S512x1024)
    (p : Fin 512) (q : Fin 1024) :
    broadcastTo S512x1024 (extractStridedSlice S1x1024 ![o, 0] (shapeCast S3x1024 x1 h1) h2) h3 (ix2 p q)
      = x1 (ix3 (0 : Fin 1) k q) :=
  (broadcastTo_1b_ab_apply _ h3 p q).trans
    ((slice2_axis0_apply o _ h2 (0 : Fin 1) q k (by omega)).trans (shapeCast_1ab_ab_apply x1 h1 k q))

/-! ## The distance and the three masked values at `(p, q)` -/

/-- The clamped distance of row point `p` and lane point `q` of the two blocks. -/
def blockDist (x0 : Vec Ideal S1x512x3 .f32) (x1 : Vec Ideal S1x3x1024 .f32) (p : Fin 512) (q : Fin 1024) : EReal :=
  clampDist (x0 (ix3 (0 : Fin 1) p (0 : Fin 3))) (x0 (ix3 (0 : Fin 1) p (1 : Fin 3))) (x0 (ix3 (0 : Fin 1) p (2 : Fin 3)))
    (x1 (ix3 (0 : Fin 1) (0 : Fin 3) q)) (x1 (ix3 (0 : Fin 1) (1 : Fin 3) q)) (x1 (ix3 (0 : Fin 1) (2 : Fin 3) q))

/-- The body's distance value at `(p, q)` is that distance. -/
theorem dist_apply (x0 : Vec Ideal S1x512x3 .f32) (x1 : Vec Ideal S1x3x1024 .f32) (p : Fin 512) (q : Fin 1024) :
    k0_pay4 (F := Ideal) x0 x1 (ix2 p q) = blockDist x0 x1 p q := by
  unfold blockDist clampDist
  rw [← rowCoord_apply x0 0 0 rfl shapeCasts_S1x512x3_S512x3 slices_S512x3_o0_0_S512x1 broadcasts_S512x1_S512x1024 p q,
    ← rowCoord_apply x0 1 1 rfl shapeCasts_S1x512x3_S512x3 slices_S512x3_o0_1_S512x1 broadcasts_S512x1_S512x1024 p q,
    ← rowCoord_apply x0 2 2 rfl shapeCasts_S1x512x3_S512x3 slices_S512x3_o0_2_S512x1 broadcasts_S512x1_S512x1024 p q,
    ← laneCoord_apply x1 0 0 rfl shapeCasts_S1x3x1024_S3x1024 slices_S3x1024_o0_0_S1x1024 broadcasts_S1x1024_S512x1024 p q,
    ← laneCoord_apply x1 1 1 rfl shapeCasts_S1x3x1024_S3x1024 slices_S3x1024_o1_0_S1x1024 broadcasts_S1x1024_S512x1024 p q,
    ← laneCoord_apply x1 2 2 rfl shapeCasts_S1x3x1024_S3x1024 slices_S3x1024_o2_0_S1x1024 broadcasts_S1x1024_S512x1024 p q]
  rfl

/-- The value masked at radius 8 is the edge weight at radius 8 of the distance value. -/
theorem weight8_apply (x0 : Vec Ideal S1x512x3 .f32) (x1 : Vec Ideal S1x3x1024 .f32) (i : S512x1024.Idx) :
    k0_pay5 (F := Ideal) x0 x1 i = edge (Ideal.ofBits .f32 0x41000000#32) (k0_pay4 (F := Ideal) x0 x1 i) := rfl

/-- The value masked again by "d < 5" is the edge weight at radius 5 (the chain of masks). -/
theorem weight5_apply (x0 : Vec Ideal S1x512x3 .f32) (x1 : Vec Ideal S1x3x1024 .f32) (i : S512x1024.Idx) :
    k0_pay6 (F := Ideal) x0 x1 i = edge (Ideal.ofBits .f32 0x40A00000#32) (k0_pay4 (F := Ideal) x0 x1 i) := by
  have e : k0_pay6 (F := Ideal) x0 x1 i
      = Scalar.select (Ideal.cmp .olt (k0_pay4 (F := Ideal) x0 x1 i) (Ideal.ofBits .f32 0x40A00000#32))
          (k0_pay5 (F := Ideal) x0 x1 i) (Ideal.ofBits .f32 0x00000000#32) := rfl
  rw [e, weight8_apply, chain_five]

/-- The value masked once more by "d < 3" is the edge weight at radius 3. -/
theorem weight3_apply (x0 : Vec Ideal S1x512x3 .f32) (x1 : Vec Ideal S1x3x1024 .f32) (i : S512x1024.Idx) :
    k0_pay7 (F := Ideal) x0 x1 i = edge (Ideal.ofBits .f32 0x40400000#32) (k0_pay4 (F := Ideal) x0 x1 i) := by
  have e : k0_pay7 (F := Ideal) x0 x1 i
      = Scalar.select (Ideal.cmp .olt (k0_pay4 (F := Ideal) x0 x1 i) (Ideal.ofBits .f32 0x40400000#32))
          (k0_pay6 (F := Ideal) x0 x1 i) (Ideal.ofBits .f32 0x00000000#32) := rfl
  rw [e, weight5_apply]
  exact select_lt_edge _ _ _ three_le_five

/-! ## The output block -/

/-- The edge weight at the radius of scale `s` of row point `p` and lane point `q`. -/
def blockEdge (x0 : Vec Ideal S1x512x3 .f32) (x1 : Vec Ideal S1x3x1024 .f32) (s : Fin 3) (p : Fin 512) (q : Fin 1024) : EReal :=
  edge (radius s) (blockDist x0 x1 p q)

/-- THE OUTPUT BLOCK as one function of its index `(s, _, p, q)`. -/
def blockEdges (x0 : Vec Ideal S1x512x3 .f32) (x1 : Vec Ideal S1x3x1024 .f32) : S3x1x512x1024.Idx → EReal :=
  fun y => blockEdge x0 x1 (y 0) (y 2) (y 3)

theorem blockEdges_of_coords (x0 : Vec Ideal S1x512x3 .f32) (x1 : Vec Ideal S1x3x1024 .f32) (y : S3x1x512x1024.Idx)
    (s : Fin 3) (p : Fin 512) (q : Fin 1024) (h0 : (y 0).val = s.val) (h2 : (y 2).val = p.val) (h3 : (y 3).val = q.val) :
    blockEdges x0 x1 y = blockEdge x0 x1 s p q := by
  unfold blockEdges
  exact congr (congr (congrArg (blockEdge x0 x1) (Fin.ext h0)) (Fin.ext h2)) (Fin.ext h3)

/-- A slab of the block: a [512, 1024] value `v` stored, with two unit axes added, through the rectangle at leading
    offset `s` lands, entry by entry, where the block function has scale `s`. -/
theorem slab_eq (x0 : Vec Ideal S1x512x3 .f32) (x1 : Vec Ideal S1x3x1024 .f32) (s : Fin 3) (off : Fin 4 → Nat)
    (hoff : off = ![s.val, 0, 0, 0]) (inb : ∀ a, off a + S1x1x512x1024.size a ≤ S3x1x512x1024.size a)
    (v : FVec Ideal S512x1024 .f32) (hv : ∀ p q, v (ix2 p q) = blockEdge x0 x1 s p q)
    (h : S512x1024.ShapeCasts S1x1x512x1024) (x : S1x1x512x1024.Idx) :
    shapeCast S1x1x512x1024 v h x
      = blockEdges x0 x1 ((Rect.unit (s := S3x1x512x1024) off S1x1x512x1024.size inb).emb x) := by
  subst hoff
  obtain ⟨u, u', p, q, rfl⟩ : ∃ (u u' : Fin 1) (p : Fin 512) (q : Fin 1024), x = ix4 u u' p q :=
    ⟨x 0, x 1, x 2, x 3, eq_ix4 x⟩
  rw [shapeCast_ab_11ab_apply, hv]
  refine (blockEdges_of_coords x0 x1 _ s p q ?_ ?_ ?_).symm
  · show s.val + 1 * u.val = s.val; omega
  · show 0 + 1 * p.val = p.val; omega
  · show 0 + 1 * q.val = q.val; omega

theorem hz3 : (![0, 0, 0] : Fin 3 → Nat) = fun _ => 0 := funext fun a => by fin_cases a <;> rfl

/-- WHAT THE BODY LEAVES in the output block, from the two input blocks: the block function. -/
theorem out_eq (x0 : Vec Ideal S1x512x3 .f32) (x1 : Vec Ideal S1x3x1024 .f32) :
    out0_2 (F := Ideal) x0 x1 = blockEdges x0 x1 := by
  funext y
  unfold out0_2
  simp only [View.ld_unit_zero (S := S1x512x3) hz3, View.ld_unit_zero (S := S1x3x1024) hz3]
  refine View.canon_apply_of_pieces (Val := Elt Ideal) (e := .f32) (blockEdges x0 x1) _ ?_ y (cover0_2 _ _ _ y)
  intro pc hpc x
  simp only [List.mem_cons, List.not_mem_nil, or_false] at hpc
  rcases hpc with rfl | rfl | rfl
  · exact slab_eq x0 x1 2 ![2, 0, 0, 0] rfl inb_S3x1x512x1024_S1x1x512x1024_2_0_0_0 (k0_pay5 (F := Ideal) x0 x1)
      (fun p q => (weight8_apply x0 x1 _).trans (by rw [dist_apply]; rfl)) shapeCasts_S512x1024_S1x1x512x1024 x
  · exact slab_eq x0 x1 1 ![1, 0, 0, 0] rfl inb_S3x1x512x1024_S1x1x512x1024_1_0_0_0 (k0_pay6 (F := Ideal) x0 x1)
      (fun p q => (weight5_apply x0 x1 _).trans (by rw [dist_apply]; rfl)) shapeCasts_S512x1024_S1x1x512x1024 x
  · exact slab_eq x0 x1 0 ![0, 0, 0, 0] rfl inb_S3x1x512x1024_S1x1x512x1024_0_0_0_0 (k0_pay7 (F := Ideal) x0 x1)
      (fun p q => (weight3_apply x0 x1 _).trans (by rw [dist_apply]; rfl)) shapeCasts_S512x1024_S1x1x512x1024 x

end Cert.KernelIdeal.Body

end
-- ==== Proof.ArrayEdges.lean ====
/-
  From the blocks to the whole array: after the kernel's run its result array is the array of edge weights.

  The grid has 8 × 4 × 2 points (g0, g1, g2).  Point (g0, g1, g2) reads rows 512·g1 … 512·g1 + 511 of batch g0 of the
  positions, lanes 1024·g2 … 1024·g2 + 1023 of batch g0 of the transposed positions, and writes, for every scale, the
  [512, 1024] tile at rows 512·g1, lanes 1024·g2 of batch g0.  So row point p of the row block is point 512·g1 + p, lane
  point q of the lane block is point 1024·g2 + q — its coordinates read through the transposition —, and entry
  (s, _, p, q) of what the point writes back is the edge weight of that pair at the radius of s: the tile of the array
  of edge weights under the point's block.  The 64 tiles cover the array (the point for (b, P, Q) is
  (b, P / 512, Q / 1024)), so the array ends holding the edge weights everywhere.
-/
import proofs.«117132_j41120016892412_2_alg».proof.Proof.Gen.KernelIdeal.Value
import proofs.«117132_j41120016892412_2_alg».proof.Proof.BodyEdges
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Cert.KernelIdeal.Body
open Idealize.ShloMosaic Idealize.ShloMosaic.TcCoe Idealize.SL.Sem Idealize.ShloMosaic.ValueIdx Cert.PairEdges
open Idealize.ShloMosaic.Pipeline (Dat)

variable (m : (ℓ : Loc nD τ sig) → Buf (Elt Ideal) ℓ) (ρ : Dev nD → PrngReg)

/-! ## The arrays the region finds -/

/-- The lane-side array, as the region finds it, is the positions with their last two axes exchanged. -/
theorem V_lanes (c : Dev nD) :
    (V m c main_v0 : S8x3x2048.Idx → EReal)
      = transpose S8x3x2048 [0, 2, 1] (m ((c : Thread nD τ).loc main_arg0)) transposes_S8x2048x3_S8x3x2048_0_2_1 := by
  dsimp only [Gen.V, Gen.hostOps0]; after_results

/-! ## The index maps, decided over the grid -/

/-- The row block moves with the output's batch and row-tile indices, the lane block with its batch and lane-tile
    indices; the remaining block indices are zero; the output's indices stay in their ranges. -/
theorem idx_facts : ∀ t : Fin cfg0.N,
    win0_0.index t (0 : Fin 3) = win0_2.index t (1 : Fin 4) ∧ win0_0.index t (1 : Fin 3) = win0_2.index t (2 : Fin 4)
    ∧ win0_0.index t (2 : Fin 3) = 0
    ∧ win0_1.index t (0 : Fin 3) = win0_2.index t (1 : Fin 4) ∧ win0_1.index t (1 : Fin 3) = 0
    ∧ win0_1.index t (2 : Fin 3) = win0_2.index t (3 : Fin 4)
    ∧ win0_2.index t (0 : Fin 4) = 0 ∧ win0_2.index t (1 : Fin 4) ≤ 7 ∧ win0_2.index t (2 : Fin 4) ≤ 3
    ∧ win0_2.index t (3 : Fin 4) ≤ 1 :=
  (by decide +kernel : ∀ t : Fin grid0.N, _)

/-- Every tile of the array is some point's. -/
theorem idx_onto : ∀ (q1 : Fin 8) (q2 : Fin 4) (q3 : Fin 2), ∃ t : Fin cfg0.N, win0_2.index t = ![0, q1.val, q2.val, q3.val] :=
  (by decide +kernel : ∀ (q1 : Fin 8) (q2 : Fin 4) (q3 : Fin 2), ∃ t : Fin grid0.N, win0_2.index t = ![0, q1.val, q2.val, q3.val])

/-! ## The two input blocks as entries of the positions -/

/-- Coordinate `k` of row point `p` of the row block at point `t` is coordinate `k` of point `P` of batch `b`, for `b`
    the point's batch and `P = 512 · (row tile) + p`. -/
theorem rowBlock_apply (c : Dev nD) (t : Fin cfg0.N) (p : Fin 512) (k : Fin 3) (b : Fin 8) (P : Fin 2048)
    (hb : b.val = win0_2.index t (1 : Fin 4)) (hP : P.val = win0_2.index t (2 : Fin 4) * 512 + p.val) :
    (iblk m c 0 t : Vec Ideal S1x512x3 .f32) (ix3 (0 : Fin 1) p k)
      = (m ((c : Thread nD τ).loc main_arg0) : S8x2048x3.Idx → EReal) (ix3 b P k) := by
  obtain ⟨e0, e1, e2, -⟩ := idx_facts t
  unfold iblk
  rw [View.read_apply]
  show V m c main_arg0 _ = _
  refine (congrFun (V_main_arg0 m c) _).trans (congrArg _ (funext fun a => Fin.ext ?_))
  match a with
  | ⟨0, _⟩ => show win0_0.index t (0 : Fin 3) * 1 + 1 * 0 = b.val; omega
  | ⟨1, _⟩ => show win0_0.index t (1 : Fin 3) * 512 + 1 * p.val = P.val; omega
  | ⟨2, _⟩ => show win0_0.index t (2 : Fin 3) * 3 + 1 * k.val = k.val; omega

/-- Coordinate `k` of lane point `q` of the lane block at point `t` is coordinate `k` of point `Q` of batch `b`, for
    `Q = 1024 · (lane tile) + q`: the lane-side array is the transposed positions. -/
theorem laneBlock_apply (c : Dev nD) (t : Fin cfg0.N) (k : Fin 3) (q : Fin 1024) (b : Fin 8) (Q : Fin 2048)
    (hb : b.val = win0_2.index t (1 : Fin 4)) (hQ : Q.val = win0_2.index t (3 : Fin 4) * 1024 + q.val) :
    (iblk m c 1 t : Vec Ideal S1x3x1024 .f32) (ix3 (0 : Fin 1) k q)
      = (m ((c : Thread nD τ).loc main_arg0) : S8x2048x3.Idx → EReal) (ix3 b Q k) := by
  obtain ⟨-, -, -, e0, e1, e2, -⟩ := idx_facts t
  unfold iblk
  rw [View.read_apply]
  show V m c main_v0 _ = _
  rw [V_lanes]
  refine transpose_apply _ _ _ _ (ix3 b Q k) fun a => ?_
  match a with
  | ⟨0, _⟩ => show b.val = win0_1.index t (0 : Fin 3) * 1 + 1 * 0; omega
  | ⟨1, _⟩ => show k.val = win0_1.index t (1 : Fin 3) * 3 + 1 * k.val; omega
  | ⟨2, _⟩ => show Q.val = win0_1.index t (2 : Fin 3) * 1024 + 1 * q.val; omega

/-- So the block function of the two blocks at point `t`, at `(s, p, q)`, is the edge weight at the radius of `s` of
    the pair `(P, Q)` of batch `b`. -/
theorem pair_eq (c : Dev nD) (t : Fin cfg0.N) (s s' : Fin 3) (p : Fin 512) (q : Fin 1024) (b : Fin 8) (P Q : Fin 2048)
    (hs : s'.val = s.val) (hb : b.val = win0_2.index t (1 : Fin 4))
    (hP : P.val = win0_2.index t (2 : Fin 4) * 512 + p.val) (hQ : Q.val = win0_2.index t (3 : Fin 4) * 1024 + q.val) :
    blockEdge (iblk m c 0 t) (iblk m c 1 t) s p q
      = edge (radius s') (pairDist (m ((c : Thread nD τ).loc main_arg0)) b P Q) := by
  obtain rfl : s' = s := Fin.ext hs
  unfold blockEdge blockDist pairDist
  rw [rowBlock_apply m c t p 0 b P hb hP, rowBlock_apply m c t p 1 b P hb hP, rowBlock_apply m c t p 2 b P hb hP,
    laneBlock_apply m c t 0 q b Q hb hQ, laneBlock_apply m c t 1 q b Q hb hQ, laneBlock_apply m c t 2 q b Q hb hQ]

/-! ## What a point writes back, the cover, the array -/

/-- WHAT POINT `t` WRITES BACK is the tile of the array of edge weights under its block. -/
theorem flushed_eq (c : Dev nD) (t : Fin cfg0.N) :
    (dats m 0 c).flushed 2 t
      = ((cfg0.win 2).blk t).view.read (Elt Ideal) (edges (m ((c : Thread nD τ).loc main_arg0))) := by
  rw [Cert.KernelIdeal.Value.flushed2]
  obtain ⟨-, -, -, -, -, -, e0, -⟩ := idx_facts t
  funext j
  show out0_2 (iblk m c 0 t) (iblk m c 1 t) j = edges (m ((c : Thread nD τ).loc main_arg0)) (((cfg0.win 2).blk t).view.emb j)
  refine (congrFun (out_eq (iblk m c 0 t) (iblk m c 1 t)) j).trans ?_
  refine pair_eq m c t (j 0) ((((cfg0.win 2).blk t).view.emb j) 0) (j 2) (j 3) ((((cfg0.win 2).blk t).view.emb j) 1)
    ((((cfg0.win 2).blk t).view.emb j) 2) ((((cfg0.win 2).blk t).view.emb j) 3) ?_ ?_ ?_ ?_
  · show win0_2.index t (0 : Fin 4) * 3 + 1 * (j 0).val = (j 0).val; omega
  · show win0_2.index t (1 : Fin 4) * 1 + 1 * (j 1).val = win0_2.index t (1 : Fin 4)
    have : (j 1).val < 1 := (j 1).isLt
    omega
  · show win0_2.index t (2 : Fin 4) * 512 + 1 * (j 2).val = win0_2.index t (2 : Fin 4) * 512 + (j 2).val; omega
  · show win0_2.index t (3 : Fin 4) * 1024 + 1 * (j 3).val = win0_2.index t (3 : Fin 4) * 1024 + (j 3).val; omega

/-- An index of the array is in point `t`'s block iff each coordinate is in the block's range on its axis. -/
theorem mem_blk (t : Fin cfg0.N) (i : S3x8x2048x2048.Idx) :
    i ∈ ((cfg0.win 2).blk t).view.set ↔ ∀ a : Fin 4, win0_2.index t a * S3x1x512x1024.size a ≤ (i a).val
      ∧ (i a).val < win0_2.index t a * S3x1x512x1024.size a + S3x1x512x1024.size a := by
  show i ∈ ((View.whole main_v1).slice (win0_2.rect t)).set ↔ _
  rw [View.set_slice_whole, Rect.mem_set_unit]
  exact Iff.rfl

/-- THE COVER: every index of the array is in the block of the point of its batch, row tile and lane tile. -/
theorem cover (i : S3x8x2048x2048.Idx) :
    ∃ t : Fin cfg0.N, (cfg0.win 2).flush t = true ∧ i ∈ ((cfg0.win 2).blk t).view.set := by
  have h0 : (i 0).val < 3 := (i 0).isLt
  have h1 : (i 1).val < 8 := (i 1).isLt
  have h2 : (i 2).val < 2048 := (i 2).isLt
  have h3 : (i 3).val < 2048 := (i 3).isLt
  obtain ⟨t, ht⟩ := idx_onto ⟨(i 1).val, h1⟩ ⟨(i 2).val / 512, by omega⟩ ⟨(i 3).val / 1024, by omega⟩
  have q0 : win0_2.index t (0 : Fin 4) = 0 := congrFun ht 0
  have q1 : win0_2.index t (1 : Fin 4) = (i 1).val := congrFun ht 1
  have q2 : win0_2.index t (2 : Fin 4) = (i 2).val / 512 := congrFun ht 2
  have q3 : win0_2.index t (3 : Fin 4) = (i 3).val / 1024 := congrFun ht 3
  refine ⟨t, flush0_2 t, ?_⟩
  rw [mem_blk]
  intro a
  match a with
  | ⟨0, _⟩ => show win0_2.index t (0 : Fin 4) * 3 ≤ (i 0).val ∧ (i 0).val < win0_2.index t (0 : Fin 4) * 3 + 3; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 1024 ≤ (i 3).val ∧ (i 3).val < win0_2.index t (3 : Fin 4) * 1024 + 1024; omega

/-- THE ARRAY after the run is the array of edge weights of the positions. -/
theorem final (c : Dev nD) : (dats m 0 c).arrAt 2 cfg0.N = edges (m ((c : Thread nD τ).loc main_arg0)) :=
  (dats m 0 c).arrAt_eq_of_cover 2 (edges (m ((c : Thread nD τ).loc main_arg0))) (fun t _ => flushed_eq m c t) cover

/-- THE RUN, read: every weakly fair execution ends with the result array at the edge weights of the positions and the
    positions unchanged. -/
theorem run : θ_run defs (onTc (τ := τ) (main (F := Ideal))) ⟨m, fun _ => 0, ρ⟩ fun r => ∀ c : Dev nD,
      r.2.mem ((c : Thread nD τ).loc main_v1) = edges (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Whole

end
-- ==== Proof.lean ====
/- The kernel and the reference compute the same array of pairwise edge weights.

   For positions pos[b, n, k] (8 batches, 2048 points, 3 coordinates) and the radii 3 < 5 < 8, entry (s, b, p, q) of the
   result is the clamped distance d of points p and q of batch b — the square root of the sum of the three squared
   coordinate differences floored at a small constant — when ε' < d < r_s, and 0 otherwise.

   The reference forms all coordinate differences, sums their squares along the last axis, and masks the distance once
   per radius.  The kernel tiles the pairs into 512 × 1024 blocks, reads the second point of each pair from the transposed
   positions, adds the three squares directly, masks the distance at radius 8, and masks that result again by "d < 5" and
   once more by "d < 3".  The two agree on the extended reals with no finiteness assumed: a sum of three terms started
   from 0 is the three terms added, and since d < 3 implies d < 5 implies d < 8, masking the weight at a larger radius
   again at a smaller one gives the weight at the smaller one (Proof/EdgeSpec.lean).  The idealization rewrote nothing
   of the kernel, so it is the kernel's own text read on the extended reals.

   Proof/EdgeSpec.lean states the edge weights and the law of the chain of masks; Proof/RefEdges.lean reads the
   reference's result at an index; Proof/BodyEdges.lean reads what the kernel body leaves in one output block;
   Proof/ArrayEdges.lean carries the blocks to the whole array over the kernel's run.  Here the five claims are put
   together. -/
import proofs.«117132_j41120016892412_2_alg».proof.Defs
import proofs.«117132_j41120016892412_2_alg».proof.Proof.Gen.Kernel
import proofs.«117132_j41120016892412_2_alg».proof.Proof.Gen.Kernel.Skeleton
import proofs.«117132_j41120016892412_2_alg».proof.Proof.Gen.Kernel.Launch
import proofs.«117132_j41120016892412_2_alg».proof.Proof.Gen.Kernel.Points
import proofs.«117132_j41120016892412_2_alg».proof.Proof.Gen.Kernel.Frame
import proofs.«117132_j41120016892412_2_alg».proof.Proof.Gen.KernelIdeal
import proofs.«117132_j41120016892412_2_alg».proof.Proof.Gen.KernelIdeal.Skeleton
import proofs.«117132_j41120016892412_2_alg».proof.Proof.Gen.KernelIdeal.Launch
import proofs.«117132_j41120016892412_2_alg».proof.Proof.Gen.KernelIdeal.Points
import proofs.«117132_j41120016892412_2_alg».proof.Proof.Gen.KernelIdeal.Frame
import proofs.«117132_j41120016892412_2_alg».proof.Proof.Gen.ReferenceIdeal
import proofs.«117132_j41120016892412_2_alg».proof.Proof.Gen.Pre_finite_inputs
import proofs.«117132_j41120016892412_2_alg».proof.Proof.Gen.KernelIdeal.Value
import proofs.«117132_j41120016892412_2_alg».proof.Proof.Gen.ReferenceIdeal.Run
import proofs.«117132_j41120016892412_2_alg».proof.Proof.Gen.ReferenceIdeal.Read
import proofs.«117132_j41120016892412_2_alg».proof.Proof.RefEdges
import proofs.«117132_j41120016892412_2_alg».proof.Proof.ArrayEdges
import Idealize.ShloMosaic.Adequacy
import Idealize.ShloMosaic.Init

noncomputable section

namespace Cert.Proof

open Idealize.ShloMosaic Idealize.SL.Sem Cert.Kernel

/-- The kernel as printed runs, and the positions end unchanged. -/
theorem frame_kernel : Cert.frame_Kernel := fun m ρ _ => Cert.Kernel.Gen.frame m ρ

/-- The kernel read on the extended reals runs, and the positions end unchanged. -/
theorem frame_ideal : Cert.frame_KernelIdeal := fun m ρ _ => Cert.KernelIdeal.Gen.frame m ρ

/-- The reference runs, and the positions end unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, run from memories that agree on the positions, end with their result arrays at the array of edge
    weights of those positions. -/
theorem algebraic : Cert.algebraic_KernelIdeal_ReferenceIdeal := by
  intro m ρ m' ρ' _ hagree
  refine ⟨fun c => Cert.PairEdges.edges (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
